-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x96 : Shape := ⟨2, ![262144, 96]⟩
abbrev S384x96 : Shape := ⟨2, ![384, 96]⟩
abbrev S384 : Shape := ⟨1, ![384]⟩
abbrev S_ : Shape := ⟨0, ![]⟩

class Facts : Prop where
  bcast_S_S262144x96 : S_.BroadcastsInDim S262144x96 (![] : Fin 0 → Fin S262144x96.rank)
  reducesTo_S262144x96_S_d0_1 : S262144x96.ReducesTo [0, 1] S_
  h_S_ : 0 < S_.numel
  bcast_S_S384x96 : S_.BroadcastsInDim S384x96 (![] : Fin 0 → Fin S384x96.rank)
  reducesTo_S384x96_S_d0_1 : S384x96.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S262144x96 .f32) (main_arg1 : FVec F S384x96 .f32) (main_arg2 : FVec F S384x96 .f32) (main_arg3 : FVec F S384 .f32) : IVec S_ 1 :=
  let main_v0 : FVec F S262144x96 .f32 := Host.absf main_arg0
  let main_cst : FVec F S_ .f32 := constant S_ .f32 0x7F800000#32
  let main_v1 : FVec F S262144x96 .f32 := broadcastInDim S262144x96 ![] bcast_S_S262144x96 main_cst
  let main_v2 : IVec S262144x96 1 := cmpf .olt main_v0 main_v1
  let main_c : IVec S_ 1 := constantI S_ 1 1#1
  let main_v3 : IVec S_ 1 := (fun x v => Host.reduce IntOp.andi x v reducesTo_S262144x96_S_d0_1 h_S_) main_v2 main_c
  let main_v4 : FVec F S384x96 .f32 := Host.absf main_arg1
  let main_cst_0 : FVec F S_ .f32 := constant S_ .f32 0x7F800000#32
  let main_v5 : FVec F S384x96 .f32 := broadcastInDim S384x96 ![] bcast_S_S384x96 main_cst_0
  let main_v6 : IVec S384x96 1 := cmpf .olt main_v4 main_v5
  let main_c_1 : IVec S_ 1 := constantI S_ 1 1#1
  let main_v7 : IVec S_ 1 := (fun x v => Host.reduce IntOp.andi x v reducesTo_S384x96_S_d0_1 h_S_) main_v6 main_c_1
  let main_v8 : IVec S_ 1 := andi main_v3 main_v7
  let main_v9 : FVec F S384x96 .f32 := Host.absf main_arg2
  let main_cst_2 : FVec F S_ .f32 := constant S_ .f32 0x7F800000#32
  let main_v10 : FVec F S384x96 .f32 := broadcastInDim S384x96 ![] bcast_S_S384x96 main_cst_2
  let main_v11 : IVec S384x96 1 := cmpf .olt main_v9 main_v10
  let main_c_3 : IVec S_ 1 := constantI S_ 1 1#1
  let main_v12 : IVec S_ 1 := (fun x v => Host.reduce IntOp.andi x v reducesTo_S384x96_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Kernel.lean ====
abbrev S262144x96 : Shape := ⟨2, ![262144, 96]⟩
abbrev S384x96 : Shape := ⟨2, ![384, 96]⟩
abbrev S384 : Shape := ⟨1, ![384]⟩
abbrev S96x384 : Shape := ⟨2, ![96, 384]⟩
abbrev S1x384 : Shape := ⟨2, ![1, 384]⟩
abbrev S262144x384 : Shape := ⟨2, ![262144, 384]⟩
abbrev S4096x96 : Shape := ⟨2, ![4096, 96]⟩
abbrev S4096x384 : Shape := ⟨2, ![4096, 384]⟩

abbrev nBuf : Space → Nat
  | .hbm => 9
  | .vmem => 6
  | .smem => 0
  | _ => 0

abbrev bufTy : (tb : Table) → Fin (tcTables nBuf tb) → BufTy
  | .hbm, ⟨0, _⟩ => ⟨S262144x96, .f32⟩
  | .hbm, ⟨1, _⟩ => ⟨S384x96, .f32⟩
  | .hbm, ⟨2, _⟩ => ⟨S384x96, .f32⟩
  | .hbm, ⟨3, _⟩ => ⟨S384, .f32⟩
  | .hbm, ⟨4, _⟩ => ⟨S384x96, .f32⟩
  | .hbm, ⟨5, _⟩ => ⟨S96x384, .f32⟩
  | .hbm, ⟨6, _⟩ => ⟨S96x384, .bf16⟩
  | .hbm, ⟨7, _⟩ => ⟨S1x384, .f32⟩
  | .hbm, ⟨8, _⟩ => ⟨S262144x384, .f32⟩
  | .local _ .vmem, ⟨0, _⟩ => ⟨S4096x96, .f32⟩
  | .local _ .vmem, ⟨1, _⟩ => ⟨S4096x96, .f32⟩
  | .local _ .vmem, ⟨2, _⟩ => ⟨S96x384, .bf16⟩
  | .local _ .vmem, ⟨3, _⟩ => ⟨S1x384, .f32⟩
  | .local _ .vmem, ⟨4, _⟩ => ⟨S4096x384, .f32⟩
  | .local _ .vmem, ⟨5, _⟩ => ⟨S4096x384, .f32⟩
  | _, _ => ⟨S262144x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S384x96_S96x384_1_0 : S384x96.Transposes [1, 0] S96x384
  bitsLt_bf16_f32 : FTy.bits .bf16 < FTy.bits .f32
  shapeCasts_S384_S1x384 : S384.ShapeCasts S1x384
  inb_S4096x96_S4096x96_0_0 : ∀ a, (![0, 0] : Fin 2 → Nat) a + S4096x96.size a ≤ S4096x96.size a
  h_S4096x96 : 0 < S4096x96.numel
  inb_S96x384_S96x384_0_0 : ∀ a, (![0, 0] : Fin 2 → Nat) a + S96x384.size a ≤ S96x384.size a
  h_S96x384 : 0 < S96x384.numel
  shapeCasts_S96x384_S96x384 : S96x384.ShapeCasts S96x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S4096x384_S4096x384_0_0 : ∀ a, (![0, 0] : Fin 2 → Nat) a + S4096x384.size a ≤ S4096x384.size a
  h_S4096x384 : 0 < S4096x384.numel
  dot_S4096x96_S96x384_S4096x384_1_0_0_1_n_n_wf : DotDims.WF S4096x96 S96x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x96.size a ≤ S262144x96.size a
  hwx0_0 : ∀ i : grid0.Coords, EltTy.bits .f32 = 32 ∨ (Rect.block (s := S262144x96) S4096x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x384.size a ≤ S96x384.size a
  hwx0_1 : ∀ i : grid0.Coords, EltTy.bits .bf16 = 32 ∨ (Rect.block (s := S96x384) S96x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x384.size a ≤ S262144x384.size a
  hwx0_3 : ∀ i : grid0.Coords, EltTy.bits .f32 = 32 ∨ (Rect.block (s := S262144x384) S4096x384.size (cc0_transform_3 i) (hinb0_3 i)).WholeWords (EltTy.packing .f32)

variable [Facts₀]

def dot_S4096x96_S96x384_S4096x384_1_0_0_1_n_n : DotDims S4096x96 S96x384 S4096x384 where
  lhsContracting := [1]
  rhsContracting := [0]
  lhsNonContracting := [0]
  rhsNonContracting := [1]
  lhsBatch := []
  rhsBatch := []
  wf := dot_S4096x96_S96x384_S4096x384_1_0_0_1_n_n_wf

abbrev win0_0 : Pipeline.Window sig grid0 :=
  Pipeline.Window.ofSpec (Memref.whole main_arg0) S4096x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S96x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x96 : Shape := ⟨2, ![262144, 96]⟩
abbrev S384x96 : Shape := ⟨2, ![384, 96]⟩
abbrev S384 : Shape := ⟨1, ![384]⟩
abbrev S96x384 : Shape := ⟨2, ![96, 384]⟩
abbrev S262144x384 : Shape := ⟨2, ![262144, 384]⟩
abbrev S1x384 : Shape := ⟨2, ![1, 384]⟩

abbrev nBuf : Space → Nat
  | .hbm => 10
  | .vmem => 0
  | .smem => 0
  | _ => 0

abbrev bufTy : (tb : Table) → Fin (tcTables nBuf tb) → BufTy
  | .hbm, ⟨0, _⟩ => ⟨S262144x96, .f32⟩
  | .hbm, ⟨1, _⟩ => ⟨S384x96, .f32⟩
  | .hbm, ⟨2, _⟩ => ⟨S384x96, .f32⟩
  | .hbm, ⟨3, _⟩ => ⟨S384, .f32⟩
  | .hbm, ⟨4, _⟩ => ⟨S384x96, .f32⟩
  | .hbm, ⟨5, _⟩ => ⟨S96x384, .f32⟩
  | .hbm, ⟨6, _⟩ => ⟨S262144x384, .f32⟩
  | .hbm, ⟨7, _⟩ => ⟨S1x384, .f32⟩
  | .hbm, ⟨8, _⟩ => ⟨S262144x384, .f32⟩
  | .hbm, ⟨9, _⟩ => ⟨S262144x384, .f32⟩
  | _, _ => ⟨S262144x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S384x96_S96x384_1_0 : S384x96.Transposes [1, 0] S96x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  dot_S262144x96_S96x384_S262144x384_1_0_0_1_n_n_wf : DotDims.WF S262144x96 S96x384 S262144x384 [1] [0] [0] [1] [] []

variable [Facts₀]

def dot_S262144x96_S96x384_S262144x384_1_0_0_1_n_n : DotDims S262144x96 S96x384 S262144x384 where
  lhsContracting := [1]
  rhsContracting := [0]
  lhsNonContracting := [0]
  rhsNonContracting := [1]
  lhsBatch := []
  rhsBatch := []
  wf := dot_S262144x96_S96x384_S262144x384_1_0_0_1_n_n_wf

class Facts : Prop extends Facts₀ where

variable [Facts]
-- ==== Proof.MaskedLinear.lean ====
/-
  The function both programs compute: a linear layer whose weight matrix is masked entry by entry.
  For a batch row `r` (of 262144) and an output channel `o` (of 384),

      out[r, o] = (∑ k < 96, x[r, k] · (weight[o, k] · mask[o, k])) + bias[o]

  over the extended reals: the contraction runs over the 96 input channels, each term the input entry times the
  masked weight entry, and the channel's bias is added to the finished sum. Both programs form this same sum of
  the same products in the same order, so nothing about infinities or the finiteness of the inputs is needed.
-/
import Idealize.ShloMosaic.Lib.ValueIdx

noncomputable section

open scoped BigOperators

namespace Cert.MaskedLinear

open Idealize.ShloMosaic Idealize.ShloMosaic.ValueIdx

/-- Entry `(r, o)` of the masked linear layer: row `r` of the input against row `o` of the masked weight
    (the product `weight · mask`, entry by entry), plus the bias of channel `o`. -/
def entry (x : (⟨2, ![262144, 96]⟩ : Shape).Idx → EReal) (w mk : (⟨2, ![384, 96]⟩ : Shape).Idx → EReal)
    (b : (⟨1, ![384]⟩ : Shape).Idx → EReal) (r : Fin 262144) (o : Fin 384) : EReal :=
  (∑ k : Fin 96, x (ix2 r k) * (w (ix2 o k) * mk (ix2 o k))) + b (ix1 o)

/-- The whole result array: entry `(i 0, i 1)` at every index `i`. -/
def out (x : (⟨2, ![262144, 96]⟩ : Shape).Idx → EReal) (w mk : (⟨2, ![384, 96]⟩ : Shape).Idx → EReal)
    (b : (⟨1, ![384]⟩ : Shape).Idx → EReal) : (⟨2, ![262144, 384]⟩ : Shape).Idx → EReal :=
  fun i => entry x w mk b (i 0) (i 1)

end Cert.MaskedLinear

end
-- ==== Proof.ReferenceValue.lean ====
/-
  The reference program's result is the masked linear layer of `MaskedLinear.lean`.
  The reference multiplies weight and mask entry by entry, transposes the product to [96, 384], contracts the
  input's channel axis against the transposed matrix's first axis, and adds the bias broadcast along the rows.
  Read at an index `(r, o)`: the contraction is the sum over `k` of `x[r, k]` times the transposed matrix at
  `(k, o)`, which is the masked weight at `(o, k)`; the broadcast bias at `(r, o)` is `bias[o]`.
-/
import proofs.«157591_j7009386627741_2_alg».proof.Proof.Gen.ReferenceIdeal.Read
import proofs.«157591_j7009386627741_2_alg».proof.Proof.MaskedLinear

noncomputable section

open scoped BigOperators

namespace Cert.ReferenceIdeal.RefValue

open Cert.ReferenceIdeal Cert.ReferenceIdeal.Read Idealize.ShloMosaic Idealize.ShloMosaic.ValueIdx

/-- The reference's last stage, as a function of the four arguments, is `MaskedLinear.out` of them. -/
theorem result_eq (x0 : (⟨S262144x96, .f32⟩ : BufTy).Contents (Elt Ideal)) (x1 x2 : (⟨S384x96, .f32⟩ : BufTy).Contents (Elt Ideal))
    (x3 : (⟨S384, .f32⟩ : BufTy).Contents (Elt Ideal)) :
    val_main_v5 (F := Ideal) x0 x1 x2 x3 = Cert.MaskedLinear.out x0 x1 x2 x3 := by
  funext i
  -- the input is read at (r, k), the masked weight (through the transpose) at (o, k), the bias at o
  have hl : ∀ k : Fin 96, lidx_main_v2 i k = ix2 (i 0) k := fun k =>
    funext fun a => Fin.ext (by match a with | ⟨0, _⟩ => rfl | ⟨1, _⟩ => rfl)
  have hr : ∀ k : Fin 96, idx_main_v1 (ridx_main_v2 i k) = ix2 (i 1) k := fun k =>
    funext fun a => Fin.ext (by match a with | ⟨0, _⟩ => rfl | ⟨1, _⟩ => rfl)
  have hb : idx_main_v3 (idx_main_v4 i) = ix1 (i 1) :=
    funext fun a => Fin.ext (by match a with | ⟨0, _⟩ => rfl)
  rw [val_main_v5_apply, val_main_v2_apply, val_main_v4_apply, val_main_v3_apply, hb]
  simp only [val_main_v1_apply, val_main_v0_apply, hl, hr]
  rfl

end Cert.ReferenceIdeal.RefValue

end
-- ==== Proof.KernelBody.lean ====
/-
  What the kernel's body computes at one grid point, entry by entry.
  The body loads a [4096, 96] block of the input, the whole [96, 384] masked and transposed weight and the
  [1, 384] bias row; it multiplies the block by the matrix into a zero accumulator and adds the bias row to
  every row of the product. At the exact values a change of float format is the identity and the product into
  zero is the plain sum, so entry `(p, q)` of the stored block is

      (∑ k < 96, block[p, k] · matrix[k, q]) + biasRow[0, q].
-/
import proofs.«157591_j7009386627741_2_alg».proof.Proof.Gen.KernelIdeal.Skeleton
import proofs.«157591_j7009386627741_2_alg».proof.Proof.MaskedLinear
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The row coordinate of the left operand's index is the output row, whatever the contraction index. -/
theorem lhs_row (i : S4096x384.Idx) (c : dot_S4096x96_S96x384_S4096x384_1_0_0_1_n_n.contr.Idx) : (dot_S4096x96_S96x384_S4096x384_1_0_0_1_n_n.lhsIdx i c 0).val = (i 0).val := by
  unfold DotDims.lhsIdx
  rw [dif_neg (show ¬(0 : Fin S4096x96.rank) ∈ dot_S4096x96_S96x384_S4096x384_1_0_0_1_n_n.lhsBatch by decide),
    dif_pos (show (0 : Fin S4096x96.rank) ∈ dot_S4096x96_S96x384_S4096x384_1_0_0_1_n_n.lhsNonContracting by decide)]
  rfl

/-- The column coordinate of the right operand's index is the output column, whatever the contraction index. -/
theorem rhs_col (i : S4096x384.Idx) (c : dot_S4096x96_S96x384_S4096x384_1_0_0_1_n_n.contr.Idx) : (dot_S4096x96_S96x384_S4096x384_1_0_0_1_n_n.rhsIdx i c 1).val = (i 1).val := by
  unfold DotDims.rhsIdx
  rw [dif_neg (show ¬(1 : Fin S96x384.rank) ∈ dot_S4096x96_S96x384_S4096x384_1_0_0_1_n_n.rhsBatch by decide),
    dif_pos (show (1 : Fin S96x384.rank) ∈ dot_S4096x96_S96x384_S4096x384_1_0_0_1_n_n.rhsNonContracting by decide)]
  rfl

/-- The left operand of the body's product at output entry `(p, q)` and contraction index `k` is read at `(p, k)`. -/
theorem lhs_at (p : Fin 4096) (q : Fin 384) (k : Fin 96) :
    dot_S4096x96_S96x384_S4096x384_1_0_0_1_n_n.lhsIdx (ix2 p q) ((contrEquiv1 dot_S4096x96_S96x384_S4096x384_1_0_0_1_n_n 96 rfl rfl).symm k) = ix2 p k := by
  have hk := contrEquiv1_symm_val dot_S4096x96_S96x384_S4096x384_1_0_0_1_n_n 96 rfl rfl k
  refine funext fun a => Fin.ext ?_
  match a with
  | ⟨0, _⟩ => exact lhs_row _ _
  | ⟨1, _⟩ => exact (dot_S4096x96_S96x384_S4096x384_1_0_0_1_n_n.lhsIdx_val_of_single rfl _ _).trans hk

/-- The right operand there is read at `(k, q)`. -/
theorem rhs_at (p : Fin 4096) (q : Fin 384) (k : Fin 96) :
    dot_S4096x96_S96x384_S4096x384_1_0_0_1_n_n.rhsIdx (ix2 p q) ((contrEquiv1 dot_S4096x96_S96x384_S4096x384_1_0_0_1_n_n 96 rfl rfl).symm k) = ix2 k q := by
  have hk := contrEquiv1_symm_val dot_S4096x96_S96x384_S4096x384_1_0_0_1_n_n 96 rfl rfl k
  refine funext fun a => Fin.ext ?_
  match a with
  | ⟨0, _⟩ => exact (dot_S4096x96_S96x384_S4096x384_1_0_0_1_n_n.rhsIdx_val_of_single rfl _ _).trans hk
  | ⟨1, _⟩ => exact rhs_col _ _

/-- The body's matrix product into the zero accumulator, at entry `(p, q)`: the sum over the 96 contracted
    channels of the left block's row `p` against the right matrix's column `q`. -/
theorem product_entry (a : FVec Ideal S4096x96 .bf16) (b : FVec Ideal S96x384 .bf16) (p : Fin 4096) (q : Fin 384) :
    matmul dot_S4096x96_S96x384_S4096x384_1_0_0_1_n_n none a b (constant (F := Ideal) S4096x384 .f32 0x00000000#32) (ix2 p q)
      = ∑ k : Fin 96, a (ix2 p k) * b (ix2 k q) := by
  simp only [matmul]
  rw [Ideal.matmul_constant_zero_apply, ← Equiv.sum_comp (contrEquiv1 dot_S4096x96_S96x384_S4096x384_1_0_0_1_n_n 96 rfl rfl).symm]
  refine Finset.sum_congr rfl fun k _ => ?_
  rw [lhs_at, rhs_at]

/-- THE STORED BLOCK at entry `(p, q)`: the product's entry plus the bias row's entry `q`. -/
theorem payload_entry (x0 : Vec Ideal S4096x96 .f32) (x1 : Vec Ideal S96x384 .bf16) (x2 : Vec Ideal S1x384 .f32)
    (p : Fin 4096) (q : Fin 384) :
    k0_pay1 (F := Ideal) x0 x1 x2 (ix2 p q) = (∑ k : Fin 96, x0 (ix2 p k) * x1 (ix2 k q)) + x2 (ix2 (0 : Fin 1) q) := by
  unfold k0_pay1
  simp only [shapeCast_self]
  rw [addf_apply, product_entry, broadcastTo_1b_ab_apply]
  rfl

/-- THE STORED BLOCK IS A BLOCK OF THE LAYER: if row `p` of the input block is row `r` of the input, the matrix
    holds the masked weight transposed, and the row holds the bias, then entry `(p, q)` of the stored block is
    entry `(r, o)` of the masked linear layer, where `o` is the channel the column `q` stands for. -/
theorem payload_is_entry (x0 : Vec Ideal S4096x96 .f32) (x1 : Vec Ideal S96x384 .bf16) (x2 : Vec Ideal S1x384 .f32)
    (X : (⟨2, ![262144, 96]⟩ : Shape).Idx → EReal) (W Mk : (⟨2, ![384, 96]⟩ : Shape).Idx → EReal)
    (B : (⟨1, ![384]⟩ : Shape).Idx → EReal) (p : Fin 4096) (q : Fin 384) (r : Fin 262144) (o : Fin 384)
    (h0 : ∀ k : Fin 96, x0 (ix2 p k) = X (ix2 r k))
    (h1 : ∀ k : Fin 96, x1 (ix2 k q) = W (ix2 o k) * Mk (ix2 o k))
    (h2 : x2 (ix2 (0 : Fin 1) q) = B (ix1 o)) :
    k0_pay1 (F := Ideal) x0 x1 x2 (ix2 p q) = Cert.MaskedLinear.entry X W Mk B r o := by
  rw [payload_entry, h2]
  unfold Cert.MaskedLinear.entry
  simp only [h0, h1]

end Cert.KernelIdeal.Body

end
-- ==== Proof.KernelOperands.lean ====
/-
  The two operands the kernel's program prepares before its region, as functions of the arguments.
  Before the region the program multiplies weight and mask entry by entry, transposes the product to
  [96, 384] and narrows it to bf16 (the identity at the exact values), and views the bias as one row
  [1, 384]. So the matrix the region reads holds, at `(k, o)`, the masked weight `weight[o, k] · mask[o, k]`,
  and the row holds, at `(0, o)`, `bias[o]`.
-/
import proofs.«157591_j7009386627741_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The matrix the region finds: the entrywise product of weight and mask, transposed, then narrowed. -/
theorem matrix_eq (c : Dev nD) :
    (V m c main_v2 : S96x384.Idx → EReal)
      = truncf (F := Ideal) .bf16 (transpose S96x384 [1, 0] (mulf (F := Ideal) (m ((c : Thread nD τ).loc main_arg1)) (m ((c : Thread nD τ).loc main_arg2)))
          transposes_S384x96_S96x384_1_0) bitsLt_bf16_f32 := by
  dsimp only [Gen.V, Gen.hostOps0]
  after_results

/-- Its entry `(k, o)` is the masked weight's entry `(o, k)` (`W`, `Mk` name the weight and mask arguments as launched). -/
theorem matrix_entry (c : Dev nD) (k : Fin 96) (o : Fin 384) (W Mk : S384x96.Idx → EReal)
    (hW : W = m ((c : Thread nD τ).loc main_arg1)) (hMk : Mk = m ((c : Thread nD τ).loc main_arg2)) :
    (V m c main_v2 : S96x384.Idx → EReal) (ix2 k o) = W (ix2 o k) * Mk (ix2 o k) := by
  subst hW hMk
  rw [matrix_eq, truncf_apply, transpose_ix2_apply]
  rfl

/-- The bias row the region finds: the bias viewed as [1, 384]. -/
theorem biasRow_eq (c : Dev nD) :
    (V m c main_v3 : S1x384.Idx → EReal) = shapeCast S1x384 (m ((c : Thread nD τ).loc main_arg3)) shapeCasts_S384_S1x384 := by
  dsimp only [Gen.V, Gen.hostOps0]
  after_results
  rfl

/-- Its entry `(0, o)` is `bias[o]`. -/
theorem biasRow_entry (c : Dev nD) (o : Fin 384) :
    (V m c main_v3 : S1x384.Idx → EReal) (ix2 (0 : Fin 1) o) = (m ((c : Thread nD τ).loc main_arg3) : S384.Idx → EReal) (ix1 o) := by
  rw [biasRow_eq, shapeCast_a_1a_apply]

end Cert.KernelIdeal.Operands

end
-- ==== Proof.KernelValue.lean ====
/-
  The kernel's result array, as one function of its arguments.
  The region runs over 64 grid points. Point `t` reads rows `4096·t … 4096·t + 4095` of the input, the whole
  [96, 384] matrix and the whole bias row, and writes back rows `4096·t … 4096·t + 4095` of the result. By the
  body's entry formula and the contents of the two prepared operands, what point `t` writes back is exactly
  block `t` of the masked linear layer of the arguments; the 64 row blocks cover the [262144, 384] result
  (row `r` lies in block `r / 4096`), so after the run the result array is the masked linear layer.
-/
import proofs.«157591_j7009386627741_2_alg».proof.Proof.Gen.KernelIdeal.Value
import proofs.«157591_j7009386627741_2_alg».proof.Proof.KernelBody
import proofs.«157591_j7009386627741_2_alg».proof.Proof.KernelOperands

noncomputable section

namespace Cert.KernelIdeal.Result

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The body's loads and its store go through the whole staging buffers: offsets zero on both axes. -/
theorem zero_offsets : (![0, 0] : Fin 2 → Nat) = fun _ => 0 := funext fun a => by fin_cases a <;> rfl

/-- The four index maps over the 64 grid points: the input's and the result's row block is the point's number,
    everything else sits at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 64 points. -/
theorem point_lt (t : Fin cfg0.N) : t.val < 64 := lt_of_lt_of_eq t.isLt N_0

/-- The masked linear layer of the arguments the program is launched with, on core `c`. -/
abbrev layer (c : Dev nD) : S262144x384.Idx → EReal :=
  Cert.MaskedLinear.out (m ((c : Thread nD τ).loc main_arg0)) (m ((c : Thread nD τ).loc main_arg1))
    (m ((c : Thread nD τ).loc main_arg2)) (m ((c : Thread nD τ).loc main_arg3))

/-- Row `p` of the input block at point `t` is row `4096·t + p` of the input argument. -/
theorem input_block (c : Dev nD) (t : Fin cfg0.N) (p : Fin 4096) (k : Fin 96) (r : Fin 262144)
    (hr : r.val = t.val * 4096 + p.val) :
    (iblk m c 0 t : Vec Ideal S4096x96 .f32) (ix2 p k)
      = (m ((c : Thread nD τ).loc main_arg0) : S262144x96.Idx → EReal) (ix2 r k) := by
  obtain ⟨e0, e1, -⟩ := index_facts t
  unfold iblk
  rw [View.read_apply]
  show V m c main_arg0 _ = _
  rw [V_main_arg0]
  refine congrArg (m ((c : Thread nD τ).loc main_arg0) : S262144x96.Idx → EReal) (funext fun a => Fin.ext ?_)
  match a with
  | ⟨0, _⟩ => show win0_0.index t (0 : Fin 2) * 4096 + 1 * p.val = r.val; omega
  | ⟨1, _⟩ => show win0_0.index t (1 : Fin 2) * 96 + 1 * k.val = k.val; omega

/-- The matrix block at every point is the whole prepared matrix. -/
theorem matrix_block (c : Dev nD) (t : Fin cfg0.N) (k : Fin 96) (q : Fin 384) :
    (iblk m c 1 t : Vec Ideal S96x384 .bf16) (ix2 k q) = (V m c main_v2 : S96x384.Idx → EReal) (ix2 k q) := by
  obtain ⟨-, -, e0, e1, -⟩ := index_facts t
  unfold iblk
  rw [View.read_apply]
  show V m c main_v2 _ = V m c main_v2 _
  refine congrArg (V m c main_v2 : S96x384.Idx → EReal) (funext fun a => Fin.ext ?_)
  match a with
  | ⟨0, _⟩ => show win0_1.index t (0 : Fin 2) * 96 + 1 * k.val = k.val; omega
  | ⟨1, _⟩ => show win0_1.index t (1 : Fin 2) * 384 + 1 * q.val = q.val; omega

/-- The bias block at every point is the whole prepared bias row. -/
theorem biasRow_block (c : Dev nD) (t : Fin cfg0.N) (q : Fin 384) :
    (iblk m c 2 t : Vec Ideal S1x384 .f32) (ix2 (0 : Fin 1) q) = (V m c main_v3 : S1x384.Idx → EReal) (ix2 (0 : Fin 1) q) := by
  obtain ⟨-, -, -, -, e0, e1, -⟩ := index_facts t
  unfold iblk
  rw [View.read_apply]
  show V m c main_v3 _ = V m c main_v3 _
  refine congrArg (V m c main_v3 : S1x384.Idx → EReal) (funext fun a => Fin.ext ?_)
  match a with
  | ⟨0, _⟩ => show win0_2.index t (0 : Fin 2) * 1 + 1 * 0 = 0; omega
  | ⟨1, _⟩ => show win0_2.index t (1 : Fin 2) * 384 + 1 * q.val = q.val; omega

/-- WHAT POINT `t` WRITES BACK is block `t` of the masked linear layer of the arguments. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero zero_offsets]
  simp only [View.ld_unit_zero (S := S4096x96) zero_offsets, View.ld_unit_zero (S := S96x384) zero_offsets,
    View.ld_unit_zero (S := S1x384) zero_offsets]
  obtain ⟨-, -, -, -, -, -, e0, e1⟩ := index_facts t
  have ht := point_lt t
  refine funext fun (y : S4096x384.Idx) => ?_
  have hp : (y 0).val < 4096 := (y 0).isLt
  show k0_pay1 (F := Ideal) (iblk m c 0 t) (iblk m c 1 t) (iblk m c 2 t) y
    = layer m c (((cfg0.win 3).blk t).view.emb y)
  -- the array index under block entry (p, q) of point t is (4096·t + p, q)
  have hi : ((cfg0.win 3).blk t).view.emb y
      = ix2 (⟨t.val * 4096 + (y 0).val, by omega⟩ : Fin 262144) (y 1) :=
    funext fun a => Fin.ext (by
      match a with
      | ⟨0, _⟩ => show win0_3.index t (0 : Fin 2) * 4096 + 1 * (y 0).val = t.val * 4096 + (y 0).val; omega
      | ⟨1, _⟩ => show win0_3.index t (1 : Fin 2) * 384 + 1 * (y 1).val = (y 1).val; omega)
  refine (congrArg (k0_pay1 (F := Ideal) (iblk m c 0 t) (iblk m c 1 t) (iblk m c 2 t)) (eq_ix2 y)).trans ?_
  refine Eq.trans ?_ (congrArg (layer m c) hi).symm
  exact Cert.KernelIdeal.Body.payload_is_entry _ _ _ _ _ _ _ (y 0) (y 1) _ (y 1)
    (fun k => input_block m c t (y 0) k _ rfl)
    (fun k => (matrix_block m c t k (y 1)).trans (Cert.KernelIdeal.Operands.matrix_entry m c k (y 1) _ _ rfl rfl))
    ((biasRow_block m c t (y 1)).trans (Cert.KernelIdeal.Operands.biasRow_entry m c (y 1)))

/-- An index of the result is in point `t`'s block iff each coordinate is in the block's range on its axis. -/
theorem mem_block (t : Fin cfg0.N) (i : S262144x384.Idx) :
    i ∈ ((cfg0.win 3).blk t).view.set ↔ ∀ a : Fin 2, win0_3.index t a * S4096x384.size a ≤ (i a).val
      ∧ (i a).val < win0_3.index t a * S4096x384.size a + S4096x384.size a := by
  show i ∈ ((View.whole main_v4).slice (win0_3.rect t)).set ↔ _
  rw [View.set_slice_whole, Rect.mem_set_unit]
  exact Iff.rfl

/-- THE COVER: row `r` of the result lies in the block of point `r / 4096`, and every point writes back. -/
theorem covered (i : S262144x384.Idx) :
    ∃ t : Fin cfg0.N, (cfg0.win 3).flush t = true ∧ i ∈ ((cfg0.win 3).blk t).view.set := by
  have hi0 : (i 0).val < 262144 := (i 0).isLt
  have hi1 : (i 1).val < 384 := (i 1).isLt
  obtain ⟨t, ht⟩ : ∃ t : Fin cfg0.N, t.val = (i 0).val / 4096 :=
    ⟨⟨(i 0).val / 4096, lt_of_lt_of_eq (show (i 0).val / 4096 < 64 by omega) N_0.symm⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 384 ≤ (i 1).val ∧ (i 1).val < win0_3.index t (1 : Fin 2) * 384 + 384
    omega

/-- THE RESULT ARRAY after the run is the masked linear layer of the arguments. -/
theorem final (c : Dev nD) : (dats m 0 c).arrAt 3 cfg0.N = layer m c :=
  (dats m 0 c).arrAt_eq_of_cover 3 (layer m c) (fun t _ => flushed_eq m c t) (covered)

/-- The kernel's run, read: every weakly fair execution ends with the result array at the masked linear layer
    of the arguments, and the arguments unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  A linear layer with a masked weight: `out = x · (weight ∘ mask)ᵀ + bias` over f32[262144, 96] inputs and
  384 output channels, computed by a kernel that streams 4096-row blocks of the input through one matrix
  product each, against the same expression written with whole-array operations.

  Over the extended reals both programs compute, at every row `r` and channel `o`,

      (∑ k < 96, x[r, k] · (weight[o, k] · mask[o, k])) + bias[o].

  The kernel's program masks and transposes the weight once, narrows it to bf16 (the identity at the exact
  values), views the bias as one row, and then at each of 64 grid points multiplies a [4096, 96] block of the
  input by the [96, 384] matrix into a zero accumulator and adds the bias row to every row of the product;
  the 64 row blocks tile the result. The reference masks and transposes the weight, contracts the input's
  channel axis against it in one whole-array product and adds the bias broadcast along the rows. The two
  sums run over the same 96 channels with the same terms in the same order, so the results agree entry by
  entry with no appeal to finiteness of the inputs.

  The three frames are the programs' runs with the values dropped; the idealization rewrote nothing, so there
  is nothing to preserve; the value claim sets the kernel's run beside the reference's.
-/
import proofs.«157591_j7009386627741_2_alg».proof.Defs
import proofs.«157591_j7009386627741_2_alg».proof.Proof.Gen.Kernel
import proofs.«157591_j7009386627741_2_alg».proof.Proof.Gen.Kernel.Skeleton
import proofs.«157591_j7009386627741_2_alg».proof.Proof.Gen.Kernel.Launch
import proofs.«157591_j7009386627741_2_alg».proof.Proof.Gen.Kernel.Points
import proofs.«157591_j7009386627741_2_alg».proof.Proof.Gen.Kernel.Frame
import proofs.«157591_j7009386627741_2_alg».proof.Proof.Gen.KernelIdeal
import proofs.«157591_j7009386627741_2_alg».proof.Proof.Gen.KernelIdeal.Skeleton
import proofs.«157591_j7009386627741_2_alg».proof.Proof.Gen.KernelIdeal.Launch
import proofs.«157591_j7009386627741_2_alg».proof.Proof.Gen.KernelIdeal.Points
import proofs.«157591_j7009386627741_2_alg».proof.Proof.Gen.KernelIdeal.Frame
import proofs.«157591_j7009386627741_2_alg».proof.Proof.Gen.KernelIdeal.Value
import proofs.«157591_j7009386627741_2_alg».proof.Proof.Gen.ReferenceIdeal
import proofs.«157591_j7009386627741_2_alg».proof.Proof.Gen.ReferenceIdeal.Run
import proofs.«157591_j7009386627741_2_alg».proof.Proof.Gen.ReferenceIdeal.Read
import proofs.«157591_j7009386627741_2_alg».proof.Proof.Gen.Pre_finite_inputs
import proofs.«157591_j7009386627741_2_alg».proof.Proof.MaskedLinear
import proofs.«157591_j7009386627741_2_alg».proof.Proof.ReferenceValue
import proofs.«157591_j7009386627741_2_alg».proof.Proof.KernelValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel's program. -/
theorem preserves : Cert.preserves_Kernel_KernelIdeal := trivial

/-- From memories that agree on the four arguments, the kernel's result array and the reference's both end
    at the masked linear layer of those arguments: the kernel's by its run read block by block, the
    reference's by its run read operation by operation. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
